-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x1024 : Shape := ⟨4, ![32, 3, 512, 1024]⟩
abbrev S_ : Shape := ⟨0, ![]⟩

class Facts : Prop where
  bcast_S_S32x3x512x1024 : S_.BroadcastsInDim S32x3x512x1024 (![] : Fin 0 → Fin S32x3x512x1024.rank)
  reducesTo_S32x3x512x1024_S_d0_1_2_3 : S32x3x512x1024.ReducesTo [0, 1, 2, 3] S_
  h_S_ : 0 < S_.numel

variable [Facts]

def fn {F : FTy → Type} [FloatOps F] (main_arg0 : FVec F S32x3x512x1024 .f32) (main_arg1 : FVec F S32x3x512x1024 .f32) : IVec S_ 1 :=
  let main_v0 : FVec F S32x3x512x1024 .f32 := Host.absf main_arg0
  let main_cst : FVec F S_ .f32 := constant S_ .f32 0x7F800000#32
  let main_v1 : FVec F S32x3x512x1024 .f32 := broadcastInDim S32x3x512x1024 ![] bcast_S_S32x3x512x1024 main_cst
  let main_v2 : IVec S32x3x512x1024 1 := cmpf .olt main_v0 main_v1
  let main_c : IVec S_ 1 := constantI S_ 1 1#1
  let main_v3 : IVec S_ 1 := (fun x v => Host.reduce IntOp.andi x v reducesTo_S32x3x512x1024_S_d0_1_2_3 h_S_) main_v2 main_c
  let main_v4 : FVec F S32x3x512x1024 .f32 := Host.absf main_arg1
  let main_cst_0 : FVec F S_ .f32 := constant S_ .f32 0x7F800000#32
  let main_v5 : FVec F S32x3x512x1024 .f32 := broadcastInDim S32x3x512x1024 ![] bcast_S_S32x3x512x1024 main_cst_0
  let main_v6 : IVec S32x3x512x1024 1 := cmpf .olt main_v4 main_v5
  let main_c_1 : IVec S_ 1 := constantI S_ 1 1#1
  let main_v7 : IVec S_ 1 := (fun x v => Host.reduce IntOp.andi x v reducesTo_S32x3x512x1024_S_d0_1_2_3 h_S_) main_v6 main_c_1
  let main_v8 : IVec S_ 1 := andi main_v3 main_v7
  main_v8
-- ==== Kernel.lean ====
abbrev S32x3x512x1024 : Shape := ⟨4, ![32, 3, 512, 1024]⟩
abbrev S32x3x1024 : Shape := ⟨3, ![32, 3, 1024]⟩
abbrev S4x3x512x256 : Shape := ⟨4, ![4, 3, 512, 256]⟩
abbrev S4x3x256 : Shape := ⟨3, ![4, 3, 256]⟩
abbrev S4x3x128x256 : Shape := ⟨4, ![4, 3, 128, 256]⟩
abbrev S32x3x1024x1 : Shape := ⟨4, ![32, 3, 1024, 1]⟩
abbrev S32x3x1024x3 : Shape := ⟨4, ![32, 3, 1024, 3]⟩
abbrev S32x9216 : Shape := ⟨2, ![32, 9216]⟩

abbrev nBuf : Space → Nat
  | .hbm => 9
  | .vmem => 8
  | .smem => 0
  | _ => 0

abbrev bufTy : (tb : Table) → Fin (tcTables nBuf tb) → BufTy
  | .hbm, ⟨0, _⟩ => ⟨S32x3x512x1024, .f32⟩
  | .hbm, ⟨1, _⟩ => ⟨S32x3x512x1024, .f32⟩
  | .hbm, ⟨2, _⟩ => ⟨S32x3x1024, .f32⟩
  | .hbm, ⟨3, _⟩ => ⟨S32x3x1024, .f32⟩
  | .hbm, ⟨4, _⟩ => ⟨S32x3x1024x1, .f32⟩
  | .hbm, ⟨5, _⟩ => ⟨S32x3x1024x1, .f32⟩
  | .hbm, ⟨6, _⟩ => ⟨S32x3x1024x1, .f32⟩
  | .hbm, ⟨7, _⟩ => ⟨S32x3x1024x3, .f32⟩
  | .hbm, ⟨8, _⟩ => ⟨S32x9216, .f32⟩
  | .local _ .vmem, ⟨0, _⟩ => ⟨S4x3x512x256, .f32⟩
  | .local _ .vmem, ⟨1, _⟩ => ⟨S4x3x512x256, .f32⟩
  | .local _ .vmem, ⟨2, _⟩ => ⟨S4x3x512x256, .f32⟩
  | .local _ .vmem, ⟨3, _⟩ => ⟨S4x3x512x256, .f32⟩
  | .local _ .vmem, ⟨4, _⟩ => ⟨S4x3x256, .f32⟩
  | .local _ .vmem, ⟨5, _⟩ => ⟨S4x3x256, .f32⟩
  | .local _ .vmem, ⟨6, _⟩ => ⟨S4x3x256, .f32⟩
  | .local _ .vmem, ⟨7, _⟩ => ⟨S4x3x256, .f32⟩
  | _, _ => ⟨S32x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c128_i32 : BitVec 32 := 128#32
  let v2 : BitVec 32 := Scalar.muli c0_i32 c128_i32
  v2
def k0_off1 (c0_i32 : BitVec 32) : Fin 4 → Nat :=
  let c0 : Index := 0#32
  let c0_1 : Index := 0#32
  let c128_i32 : BitVec 32 := 128#32
  let v2 : BitVec 32 := Scalar.muli c0_i32 c128_i32
  let v3 : BitVec 32 := v2
  let v4 : Index := Scalar.indexCast v3
  let c0_2 : Index := 0#32
  ![0, 0, v4.toNat, 0]
def k0_mult2 : BitVec 32 :=
  let c1_i32 : BitVec 32 := 1#32
  let c128_i32_8 : BitVec 32 := 128#32
  let v15 : BitVec 32 := Scalar.muli c1_i32 c128_i32_8
  v15
def k0_mult3 : BitVec 32 :=
  let c2_i32 : BitVec 32 := 2#32
  let c128_i32_17 : BitVec 32 := 128#32
  let v28 : BitVec 32 := Scalar.muli c2_i32 c128_i32_17
  v28
def k0_mult4 : BitVec 32 :=
  let c3_i32 : BitVec 32 := 3#32
  let c128_i32_26 : BitVec 32 := 128#32
  let v41 : BitVec 32 := Scalar.muli c3_i32 c128_i32_26
  v41
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x3x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x3x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  h_S4x3x128x256 : 0 < S4x3x128x256.numel
  reduces_S4x3x128x256_S4x3x256 : S4x3x128x256.Reduces [2] S4x3x256
  inb_S4x3x256_S4x3x256_0_0_0 : ∀ a, (![0, 0, 0] : Fin 3 → Nat) a + S4x3x256.size a ≤ S4x3x256.size a
  h_S4x3x256 : 0 < S4x3x256.numel
  bcast_S32x3x1024_S32x3x1024x1_0_1_2 : S32x3x1024.BroadcastsInDim S32x3x1024x1 (![0, 1, 2] : Fin 3 → Fin S32x3x1024x1.rank)
  concatenates_S32x3x1024x1_S32x3x1024x1_S32x3x1024x1_S32x3x1024x3_d3 : Shape.Concatenates [S32x3x1024x1, S32x3x1024x1, S32x3x1024x1] S32x3x1024x3 3
  shapeCasts_S32x3x1024x3_S32x9216 : S32x3x1024x3.ShapeCasts S32x9216
  hrank0 : 0 < grid0.rank
  k0_mult1_dvd : 128 ∣ k0_mult1.toNat
  k0_off1_inb : ∀ (r : Fin 4), ∀ a, (k0_off1 (BitVec.ofNat 32 r.val)) a + S4x3x128x256.size a ≤ S4x3x512x256.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512x256.size a ≤ S32x3x512x1024.size a
  hwx0_0 : ∀ i : grid0.Coords, EltTy.bits .f32 = 32 ∨ (Rect.block (s := S32x3x512x1024) S4x3x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512x256.size a ≤ S32x3x512x1024.size a
  hwx0_1 : ∀ i : grid0.Coords, EltTy.bits .f32 = 32 ∨ (Rect.block (s := S32x3x512x1024) S4x3x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x256.size a ≤ S32x3x1024.size a
  hwx0_2 : ∀ i : grid0.Coords, EltTy.bits .f32 = 32 ∨ (Rect.block (s := S32x3x1024) S4x3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x3x256.size a ≤ S32x3x1024.size a
  hwx0_3 : ∀ i : grid0.Coords, EltTy.bits .f32 = 32 ∨ (Rect.block (s := S32x3x1024) S4x3x256.size (cc0_transform_3 i) (hinb0_3 i)).WholeWords (EltTy.packing .f32)

variable [Facts₀]

abbrev win0_0 : Pipeline.Window sig grid0 :=
  Pipeline.Window.ofSpec (Memref.whole main_arg0) S4x3x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x3x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x3x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x512x1024 : Shape := ⟨4, ![32, 3, 512, 1024]⟩
abbrev S32x3x1024x512 : Shape := ⟨4, ![32, 3, 1024, 512]⟩
abbrev S32x3072x512 : Shape := ⟨3, ![32, 3072, 512]⟩
abbrev S_ : Shape := ⟨0, ![]⟩
abbrev S32x3072 : Shape := ⟨2, ![32, 3072]⟩
abbrev S32x3072x1 : Shape := ⟨3, ![32, 3072, 1]⟩
abbrev S32x3072x3 : Shape := ⟨3, ![32, 3072, 3]⟩
abbrev S32x9216 : Shape := ⟨2, ![32, 9216]⟩

abbrev nBuf : Space → Nat
  | .hbm => 18
  | .vmem => 0
  | .smem => 0
  | _ => 0

abbrev bufTy : (tb : Table) → Fin (tcTables nBuf tb) → BufTy
  | .hbm, ⟨0, _⟩ => ⟨S32x3x512x1024, .f32⟩
  | .hbm, ⟨1, _⟩ => ⟨S32x3x512x1024, .f32⟩
  | .hbm, ⟨2, _⟩ => ⟨S32x3x1024x512, .f32⟩
  | .hbm, ⟨3, _⟩ => ⟨S32x3072x512, .f32⟩
  | .hbm, ⟨4, _⟩ => ⟨S32x3x1024x512, .f32⟩
  | .hbm, ⟨5, _⟩ => ⟨S32x3072x512, .f32⟩
  | .hbm, ⟨6, _⟩ => ⟨S32x3072x512, .f32⟩
  | .hbm, ⟨7, _⟩ => ⟨S32x3072x512, .f32⟩
  | .hbm, ⟨8, _⟩ => ⟨S_, .f32⟩
  | .hbm, ⟨9, _⟩ => ⟨S32x3072, .f32⟩
  | .hbm, ⟨10, _⟩ => ⟨S32x3072x512, .f32⟩
  | .hbm, ⟨11, _⟩ => ⟨S_, .f32⟩
  | .hbm, ⟨12, _⟩ => ⟨S32x3072, .f32⟩
  | .hbm, ⟨13, _⟩ => ⟨S32x3072x1, .f32⟩
  | .hbm, ⟨14, _⟩ => ⟨S32x3072x1, .f32⟩
  | .hbm, ⟨15, _⟩ => ⟨S32x3072x1, .f32⟩
  | .hbm, ⟨16, _⟩ => ⟨S32x3072x3, .f32⟩
  | .hbm, ⟨17, _⟩ => ⟨S32x9216, .f32⟩
  | _, _ => ⟨S32x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  transposes_S32x3x512x1024_S32x3x1024x512_0_1_3_2 : S32x3x512x1024.Transposes [0, 1, 3, 2] S32x3x1024x512
  shapeCasts_S32x3x1024x512_S32x3072x512 : S32x3x1024x512.ShapeCasts S32x3072x512
  reducesTo_S32x3072x512_S32x3072_d2 : S32x3072x512.ReducesTo [2] S32x3072
  h_S_ : 0 < S_.numel
  bcast_S32x3072_S32x3072x1_0_1 : S32x3072.BroadcastsInDim S32x3072x1 (![0, 1] : Fin 2 → Fin S32x3072x1.rank)
  concatenates_S32x3072x1_S32x3072x1_S32x3072x1_S32x3072x3_d2 : Shape.Concatenates [S32x3072x1, S32x3072x1, S32x3072x1] S32x3072x3 2
  shapeCasts_S32x3072x3_S32x9216 : S32x3072x3.ShapeCasts S32x9216

variable [Facts₀]

class Facts : Prop extends Facts₀ where

variable [Facts]
-- ==== Proof.RunBits.lean ====
/-
  The whole run of the program's entry point at any float instance: one pipelined region over a grid of 8 x 4 points
  followed by five host operations (three keepdims broadcasts, a concatenation of the three columns, a reshape).

  At a grid point the body reads, from each of its two input blocks [4,3,512,256], the four slabs of 128 rows
  (rows 128 k .. 128 k + 127 of the third axis, k = 0..3), and stores into each of its two output blocks [4,3,256]
  one whole-block value computed from those eight slabs; it also loads each output buffer once, but no stored value
  depends on what it read there.  So after the body an output buffer holds a pure function of the two input blocks,
  and the inputs are left in place.  From this the pipeline library's frame theorem gives the run: it terminates
  without a fault, each output array ends at what the points wrote back, every other unscoped buffer at what the host
  operations after the region leave there, and the two argument arrays end as launched.
-/
import proofs.«146853_j57389353009457_2_alg».proof.Proof.Gen.Kernel.Launch
import proofs.«146853_j57389353009457_2_alg».proof.Proof.Gen.Kernel.Skeleton
import proofs.«146853_j57389353009457_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point around its region -/

/-- The buffers of core `c` as the region finds them: no host operation comes before it, so as launched. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- None of the five host operations allocates. -/
theorem tail_fresh : (hostOps1 : List (HloOp τ sig (Elt F))).Forall fun op => op.fresh = ∅ := by
  simp only [List.Forall]; repeat' constructor

/-- The entry point is the region continued by the five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- Each host operation writes only its own result buffer, and none of those five is an array of the pipeline
    (the two arguments and the two results of the region). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.unary_writes, StableHlo.reshape_writes, StableHlo.nary_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- Slab `k` of an input block: rows 128 k .. 128 k + 127 of its third axis. -/
abbrev slab0 : Rect S4x3x512x256 := Rect.unit (s := S4x3x512x256) (k0_off1 0#32) S4x3x128x256.size (k0_off1_inb 0)
abbrev slab1 : Rect S4x3x512x256 := Rect.unit (s := S4x3x512x256) (k0_off1 1#32) S4x3x128x256.size (k0_off1_inb 1)
abbrev slab2 : Rect S4x3x512x256 := Rect.unit (s := S4x3x512x256) (k0_off1 2#32) S4x3x128x256.size (k0_off1_inb 2)
abbrev slab3 : Rect S4x3x512x256 := Rect.unit (s := S4x3x512x256) (k0_off1 3#32) S4x3x128x256.size (k0_off1_inb 3)
/-- An output block, whole. -/
abbrev wholeOut : Rect S4x3x256 := Rect.unit (s := S4x3x256) ![0, 0, 0] S4x3x256.size inb_S4x3x256_S4x3x256_0_0_0

/-! ## What the body leaves in each output buffer -/

/-- The first output's buffer after the body: its one store, of the running sum of absolute differences over the
    four slabs. -/
def out0_2 (x0 x1 : Vec F S4x3x512x256 .f32) : Vec F S4x3x256 .f32 :=
  View.canon [⟨wholeOut, k0_pay3 (k0_pay7 (View.ld x0 slab0) (View.ld x1 slab0) (View.ld x0 slab1) (View.ld x1 slab1))
    (View.ld x0 slab2) (View.ld x1 slab2) (View.ld x0 slab3) (View.ld x1 slab3)⟩]

/-- The second output's: the running sum of squared differences. -/
def out0_3 (x0 x1 : Vec F S4x3x512x256 .f32) : Vec F S4x3x256 .f32 :=
  View.canon [⟨wholeOut, k0_pay4 (k0_pay8 (View.ld x0 slab0) (View.ld x1 slab0) (View.ld x0 slab1) (View.ld x1 slab1))
    (View.ld x0 slab2) (View.ld x1 slab2) (View.ld x0 slab3) (View.ld x1 slab3)⟩]

/-- The one store covers the buffer. -/
theorem cover_out (p0 : Vec F S4x3x256 .f32) (y : S4x3x256.Idx) :
    ∃ pc ∈ ([⟨wholeOut, p0⟩] : List (View.Piece (Elt F) S4x3x256 .f32)), y ∈ pc.1.set :=
  View.cover_of_tiled [⟨wholeOut, p0⟩] S4x3x256.size (by rfl) y

/-! ## The body's triple -/

set_option maxHeartbeats 1000000 in
/-- The body on whole staging buffers, the inputs' at contents `x0`, `x1` and the outputs' at anything, runs to the
    continuation with the inputs' as they were and the outputs' at `out0_2`, `out0_3` of the inputs'. -/
theorem sound_kernel (c : Dev nD) (E : Set ℕ) (i : grid0.Coords) (arg2 : Memref sig .tc .vmem S4x3x512x256 .f32) (harg2 : arg2.IsWhole) (arg3 : Memref sig .tc .vmem S4x3x512x256 .f32) (harg3 : arg3.IsWhole) (arg4 : Memref sig .tc .vmem S4x3x256 .f32) (harg4 : arg4.IsWhole) (arg5 : Memref sig .tc .vmem S4x3x256 .f32) (harg5 : arg5.IsWhole)
    (x0 x1 : Vec F S4x3x512x256 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__dist_kernel i arg2 harg2 arg3 harg3 arg4 harg4 arg5 harg5) K := by
  simp only [cc0__dist_kernel_eq_skeleton]; unfold cc0__dist_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover_out _)
  iexists _; isplitr
  swap; · iexact H3
  ipureintro
  try dsimp only
  exact View.read_writes_eq_canon _ _ _ (cover_out _)

/-! ## The pipeline's proof data -/

/-- The arrays as the region finds them; after the body at point `t` each input's buffer at its block and each
    output's at its function of the two input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the entry point terminates without a fault; every array of the pipeline ends at
    what the points wrote back, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The two argument arrays end as launched: each is an input window's array, which no point writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Kernel.Whole

end
-- ==== Proof.RunIdeal.lean ====
/-
  The whole run of the program's entry point at any float instance: one pipelined region over a grid of 8 x 4 points
  followed by five host operations (three keepdims broadcasts, a concatenation of the three columns, a reshape).

  At a grid point the body reads, from each of its two input blocks [4,3,512,256], the four slabs of 128 rows
  (rows 128 k .. 128 k + 127 of the third axis, k = 0..3), and stores into each of its two output blocks [4,3,256]
  one whole-block value computed from those eight slabs; it also loads each output buffer once, but no stored value
  depends on what it read there.  So after the body an output buffer holds a pure function of the two input blocks,
  and the inputs are left in place.  From this the pipeline library's frame theorem gives the run: it terminates
  without a fault, each output array ends at what the points wrote back, every other unscoped buffer at what the host
  operations after the region leave there, and the two argument arrays end as launched.
-/
import proofs.«146853_j57389353009457_2_alg».proof.Proof.Gen.KernelIdeal.Launch
import proofs.«146853_j57389353009457_2_alg».proof.Proof.Gen.KernelIdeal.Skeleton
import proofs.«146853_j57389353009457_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point around its region -/

/-- The buffers of core `c` as the region finds them: no host operation comes before it, so as launched. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- None of the five host operations allocates. -/
theorem tail_fresh : (hostOps1 : List (HloOp τ sig (Elt F))).Forall fun op => op.fresh = ∅ := by
  simp only [List.Forall]; repeat' constructor

/-- The entry point is the region continued by the five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- Each host operation writes only its own result buffer, and none of those five is an array of the pipeline
    (the two arguments and the two results of the region). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.unary_writes, StableHlo.reshape_writes, StableHlo.nary_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- Slab `k` of an input block: rows 128 k .. 128 k + 127 of its third axis. -/
abbrev slab0 : Rect S4x3x512x256 := Rect.unit (s := S4x3x512x256) (k0_off1 0#32) S4x3x128x256.size (k0_off1_inb 0)
abbrev slab1 : Rect S4x3x512x256 := Rect.unit (s := S4x3x512x256) (k0_off1 1#32) S4x3x128x256.size (k0_off1_inb 1)
abbrev slab2 : Rect S4x3x512x256 := Rect.unit (s := S4x3x512x256) (k0_off1 2#32) S4x3x128x256.size (k0_off1_inb 2)
abbrev slab3 : Rect S4x3x512x256 := Rect.unit (s := S4x3x512x256) (k0_off1 3#32) S4x3x128x256.size (k0_off1_inb 3)
/-- An output block, whole. -/
abbrev wholeOut : Rect S4x3x256 := Rect.unit (s := S4x3x256) ![0, 0, 0] S4x3x256.size inb_S4x3x256_S4x3x256_0_0_0

/-! ## What the body leaves in each output buffer -/

/-- The first output's buffer after the body: its one store, of the running sum of absolute differences over the
    four slabs. -/
def out0_2 (x0 x1 : Vec F S4x3x512x256 .f32) : Vec F S4x3x256 .f32 :=
  View.canon [⟨wholeOut, k0_pay3 (k0_pay7 (View.ld x0 slab0) (View.ld x1 slab0) (View.ld x0 slab1) (View.ld x1 slab1))
    (View.ld x0 slab2) (View.ld x1 slab2) (View.ld x0 slab3) (View.ld x1 slab3)⟩]

/-- The second output's: the running sum of squared differences. -/
def out0_3 (x0 x1 : Vec F S4x3x512x256 .f32) : Vec F S4x3x256 .f32 :=
  View.canon [⟨wholeOut, k0_pay4 (k0_pay8 (View.ld x0 slab0) (View.ld x1 slab0) (View.ld x0 slab1) (View.ld x1 slab1))
    (View.ld x0 slab2) (View.ld x1 slab2) (View.ld x0 slab3) (View.ld x1 slab3)⟩]

/-- The one store covers the buffer. -/
theorem cover_out (p0 : Vec F S4x3x256 .f32) (y : S4x3x256.Idx) :
    ∃ pc ∈ ([⟨wholeOut, p0⟩] : List (View.Piece (Elt F) S4x3x256 .f32)), y ∈ pc.1.set :=
  View.cover_of_tiled [⟨wholeOut, p0⟩] S4x3x256.size (by rfl) y

/-! ## The body's triple -/

set_option maxHeartbeats 1000000 in
/-- The body on whole staging buffers, the inputs' at contents `x0`, `x1` and the outputs' at anything, runs to the
    continuation with the inputs' as they were and the outputs' at `out0_2`, `out0_3` of the inputs'. -/
theorem sound_kernel (c : Dev nD) (E : Set ℕ) (i : grid0.Coords) (arg2 : Memref sig .tc .vmem S4x3x512x256 .f32) (harg2 : arg2.IsWhole) (arg3 : Memref sig .tc .vmem S4x3x512x256 .f32) (harg3 : arg3.IsWhole) (arg4 : Memref sig .tc .vmem S4x3x256 .f32) (harg4 : arg4.IsWhole) (arg5 : Memref sig .tc .vmem S4x3x256 .f32) (harg5 : arg5.IsWhole)
    (x0 x1 : Vec F S4x3x512x256 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__dist_kernel i arg2 harg2 arg3 harg3 arg4 harg4 arg5 harg5) K := by
  simp only [cc0__dist_kernel_eq_skeleton]; unfold cc0__dist_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover_out _)
  iexists _; isplitr
  swap; · iexact H3
  ipureintro
  try dsimp only
  exact View.read_writes_eq_canon _ _ _ (cover_out _)

/-! ## The pipeline's proof data -/

/-- The arrays as the region finds them; after the body at point `t` each input's buffer at its block and each
    output's at its function of the two input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the entry point terminates without a fault; every array of the pipeline ends at
    what the points wrote back, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The two argument arrays end as launched: each is an input window's array, which no point writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Whole

end
-- ==== Proof.Spec.lean ====
/-
  The mathematics shared by the two programs, on the extended reals.

  For two arrays x, y of shape [32, 3, 512, 1024], a batch b, a plane p and a lane n, the two quantities are the sum
  over the 512 rows c of |x - y| and of (x - y)^2 at (b, p, c, n).  The result [32, 9216] interleaves them: its entry
  (b, j) with j = 3 (1024 p + n) + k is the first quantity for k = 0 and k = 2 and the second for k = 1.

  A sum over 512 rows is the sum of its four runs of 128 rows, added from zero one run after the other: only the
  commutative monoid laws of addition are used, which hold on the extended reals without any finiteness hypothesis.
-/
import Idealize.ShloMosaic.PureOps.Ideal
import Idealize.ShloMosaic.Lib.ValueIdx

noncomputable section

open scoped BigOperators

namespace Cert.PairDist

open Idealize.ShloMosaic Idealize.ShloMosaic.ValueIdx

/-- The arguments' shape. -/
abbrev Arg : Shape := ⟨4, ![32, 3, 512, 1024]⟩
/-- The result's shape. -/
abbrev Res : Shape := ⟨2, ![32, 9216]⟩

/-- The difference of the two arrays at (b, p, c, n). -/
def gap (x y : Arg.Idx → EReal) (b : Fin 32) (p : Fin 3) (c : Fin 512) (n : Fin 1024) : EReal :=
  x (ix4 b p c n) - y (ix4 b p c n)

/-- The sum over the rows of the absolute difference. -/
def absSum (x y : Arg.Idx → EReal) (b : Fin 32) (p : Fin 3) (n : Fin 1024) : EReal :=
  ∑ c : Fin 512, max (gap x y b p c n) (-(gap x y b p c n))

/-- The sum over the rows of the squared difference. -/
def sqSum (x y : Arg.Idx → EReal) (b : Fin 32) (p : Fin 3) (n : Fin 1024) : EReal :=
  ∑ c : Fin 512, gap x y b p c n * gap x y b p c n

/-- Column k of the interleaved triple: absolute, squared, absolute. -/
def col (x y : Arg.Idx → EReal) (k : Nat) (b : Fin 32) (p : Fin 3) (n : Fin 1024) : EReal :=
  if k = 1 then sqSum x y b p n else absSum x y b p n

/-- The result array: entry (b, j) is column j % 3 at plane j / 3072 and lane j / 3 % 1024. -/
def out (x y : Arg.Idx → EReal) : Res.Idx → EReal := fun i =>
  col x y ((i 1).val % 3) ⟨(i 0).val, idx2_lt0 i⟩
    ⟨(i 1).val / 3072, by have := idx2_lt1 i; omega⟩ ⟨(i 1).val / 3 % 1024, by omega⟩

/-- A sum over 512 indices is the sum of its four runs of 128. -/
theorem sum_four_runs {M : Type*} [AddCommMonoid M] (f : Fin 512 → M) :
    ∑ c : Fin 512, f c
      = (∑ k : Fin 128, f ⟨k.val, by have := k.isLt; omega⟩) + (∑ k : Fin 128, f ⟨128 + k.val, by have := k.isLt; omega⟩)
        + (∑ k : Fin 128, f ⟨256 + k.val, by have := k.isLt; omega⟩) + (∑ k : Fin 128, f ⟨384 + k.val, by have := k.isLt; omega⟩) := by
  have h3 := Fin.sum_univ_add (a := 384) (b := 128) f
  have h2 := Fin.sum_univ_add (a := 256) (b := 128) (fun i => f (Fin.castAdd 128 i))
  have h1 := Fin.sum_univ_add (a := 128) (b := 128) (fun i => f (Fin.castAdd 128 (Fin.castAdd 128 i)))
  rw [h3, h2, h1]
  rfl

/-- The same added from zero one run after the other, as a kernel that accumulates run by run does, against the sum
    started from zero, as a host reduction does. -/
theorem zero_add_runs {M : Type*} [AddCommMonoid M] (f : Fin 512 → M) :
    (0 : M) + ∑ c : Fin 512, f c
      = ((((0 : M) + ∑ k : Fin 128, f ⟨k.val, by have := k.isLt; omega⟩) + ∑ k : Fin 128, f ⟨128 + k.val, by have := k.isLt; omega⟩)
        + ∑ k : Fin 128, f ⟨256 + k.val, by have := k.isLt; omega⟩) + ∑ k : Fin 128, f ⟨384 + k.val, by have := k.isLt; omega⟩ := by
  rw [sum_four_runs f]
  simp only [add_assoc]

end Cert.PairDist

end
-- ==== Proof.KernelBlock.lean ====
/-
  What one grid point of the idealized kernel leaves in its two output blocks, entry by entry, on the extended reals.

  The body reads the four slabs of 128 rows of each input block [4,3,512,256] and keeps two running sums [4,3,256],
  started at zero: after slab k the first holds the sum over the rows seen so far of |x0 - x1| and the second that of
  (x0 - x1)^2, each at (a, p, n).  A lane reduction over the 128 rows of a slab is, at the ideal instance, the plain
  sum over those rows; slab k's row r is row 128 k + r of the block.
-/
import proofs.«146853_j57389353009457_2_alg».proof.Proof.RunIdeal
import proofs.«146853_j57389353009457_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Cert.KernelIdeal.Whole
open Idealize.ShloMosaic Idealize.ShloMosaic.ValueIdx

theorem zeros3 : (![0, 0, 0] : Fin 3 → Nat) = fun _ => 0 := funext fun a => by fin_cases a <;> rfl

/-- Slab k of an input block: its rows 128 k .. 128 k + 127. -/
abbrev slabOf (k : Fin 4) : Rect S4x3x512x256 :=
  Rect.unit (s := S4x3x512x256) (k0_off1 (BitVec.ofNat 32 k.val)) S4x3x128x256.size (k0_off1_inb k)

/-- Row r of slab k of a block is row 128 k + r of the block. -/
theorem slab_apply (x : Vec Ideal S4x3x512x256 .f32) (k : Fin 4) (a : Fin 4) (p : Fin 3) (r : Fin 128) (n : Fin 256) :
    View.ld x (slabOf k) (ix4 a p r n)
      = x (ix4 a p ⟨128 * k.val + r.val, by have := k.isLt; have := r.isLt; omega⟩ n) := by
  show x _ = x _
  refine congrArg x (funext fun e => Fin.ext ?_)
  show k0_off1 (BitVec.ofNat 32 k.val) e + 1 * ((ix4 a p r n : S4x3x128x256.Idx) e).val
    = ((ix4 a p ⟨128 * k.val + r.val, by have := k.isLt; have := r.isLt; omega⟩ n : S4x3x512x256.Idx) e).val
  rw [k0_off1_eq k]
  match e with
  | ⟨0, _⟩ => show 0 + 1 * a.val = a.val; omega
  | ⟨1, _⟩ => show 0 + 1 * p.val = p.val; omega
  | ⟨2, _⟩ => show 128 * k.val + 1 * r.val = 128 * k.val + r.val; omega
  | ⟨3, _⟩ => show 0 + 1 * n.val = n.val; omega

/-- A lane reduction over the 128 rows of a slab-sized array, read at (a, p, n): the sum over its rows. -/
theorem rows_sum (w : FVec Ideal S4x3x128x256 .f32) (hacc : (0x00000000#32 : BitVec 32) = 0x00000000#32)
    (a : Fin 4) (p : Fin 3) (n : Fin 256) :
    multiReduction .add [2] S4x3x256 w 0x00000000#32 reduces_S4x3x128x256_S4x3x256 (.inl rfl) hacc (ix3 a p n)
      = ∑ r : Fin 128, w (ix4 a p r n) := by
  refine (Ideal.multiReduction_add_single w 0x00000000#32 reduces_S4x3x128x256_S4x3x256 (.inl rfl) hacc (ix3 a p n)).trans ?_
  show ∑ r : Fin 128, _ = _
  refine Finset.sum_congr rfl fun r _ => ?_
  exact congrArg w (funext fun e => Fin.ext (by match e with | ⟨0, _⟩ => rfl | ⟨1, _⟩ => rfl | ⟨2, _⟩ => rfl | ⟨3, _⟩ => rfl))

/-- The difference of two blocks at row c of (a, p, n). -/
def gapAt (x0 x1 : Vec Ideal S4x3x512x256 .f32) (a : Fin 4) (p : Fin 3) (n : Fin 256) (c : Fin 512) : EReal :=
  (x0 (ix4 a p c n) : EReal) - (x1 (ix4 a p c n) : EReal)

/-- Slab k's part of the first running sum at (a, p, n): the sum over its 128 rows of the absolute difference. -/
theorem abs_run (x0 x1 : Vec Ideal S4x3x512x256 .f32) (k : Fin 4) (hacc : (0x00000000#32 : BitVec 32) = 0x00000000#32)
    (a : Fin 4) (p : Fin 3) (n : Fin 256) :
    multiReduction (F := Ideal) .add [2] S4x3x256
        (absf (subf (View.ld x0 (slabOf k))
          (View.ld x1 (slabOf k))))
        0x00000000#32 reduces_S4x3x128x256_S4x3x256 (.inl rfl) hacc (ix3 a p n)
      = ∑ r : Fin 128, max (gapAt x0 x1 a p n ⟨128 * k.val + r.val, by have := k.isLt; have := r.isLt; omega⟩)
          (-(gapAt x0 x1 a p n ⟨128 * k.val + r.val, by have := k.isLt; have := r.isLt; omega⟩)) := by
  refine (rows_sum _ hacc a p n).trans (Finset.sum_congr rfl fun r _ => ?_)
  show max (View.ld x0 (slabOf k) (ix4 a p r n) - View.ld x1 (slabOf k) (ix4 a p r n))
    (-(View.ld x0 (slabOf k) (ix4 a p r n) - View.ld x1 (slabOf k) (ix4 a p r n))) = _
  rw [slab_apply x0 k a p r n, slab_apply x1 k a p r n]
  rfl

/-- Slab k's part of the second running sum: the sum over its rows of the squared difference. -/
theorem sq_run (x0 x1 : Vec Ideal S4x3x512x256 .f32) (k : Fin 4) (hacc : (0x00000000#32 : BitVec 32) = 0x00000000#32)
    (a : Fin 4) (p : Fin 3) (n : Fin 256) :
    multiReduction (F := Ideal) .add [2] S4x3x256
        (mulf (subf (View.ld x0 (slabOf k))
            (View.ld x1 (slabOf k)))
          (subf (View.ld x0 (slabOf k))
            (View.ld x1 (slabOf k))))
        0x00000000#32 reduces_S4x3x128x256_S4x3x256 (.inl rfl) hacc (ix3 a p n)
      = ∑ r : Fin 128, gapAt x0 x1 a p n ⟨128 * k.val + r.val, by have := k.isLt; have := r.isLt; omega⟩
          * gapAt x0 x1 a p n ⟨128 * k.val + r.val, by have := k.isLt; have := r.isLt; omega⟩ := by
  refine (rows_sum _ hacc a p n).trans (Finset.sum_congr rfl fun r _ => ?_)
  show (View.ld x0 (slabOf k) (ix4 a p r n) - View.ld x1 (slabOf k) (ix4 a p r n))
    * (View.ld x0 (slabOf k) (ix4 a p r n) - View.ld x1 (slabOf k) (ix4 a p r n)) = _
  rw [slab_apply x0 k a p r n, slab_apply x1 k a p r n]
  rfl

/-- The word of the float zero the running sums start from, at the ideal instance. -/
abbrev zeroWord : EReal := Ideal.ofBits .f32 0x00000000#32

/-- THE FIRST OUTPUT BLOCK at (a, p, n): from zero, the four slabs' sums of absolute differences added in turn. -/
theorem out2_apply (x0 x1 : Vec Ideal S4x3x512x256 .f32) (a : Fin 4) (p : Fin 3) (n : Fin 256) :
    out0_2 x0 x1 (ix3 a p n)
      = (((zeroWord + ∑ r : Fin 128, max (gapAt x0 x1 a p n ⟨r.val, by have := r.isLt; omega⟩) (-(gapAt x0 x1 a p n ⟨r.val, by have := r.isLt; omega⟩)))
          + ∑ r : Fin 128, max (gapAt x0 x1 a p n ⟨128 + r.val, by have := r.isLt; omega⟩) (-(gapAt x0 x1 a p n ⟨128 + r.val, by have := r.isLt; omega⟩)))
          + ∑ r : Fin 128, max (gapAt x0 x1 a p n ⟨256 + r.val, by have := r.isLt; omega⟩) (-(gapAt x0 x1 a p n ⟨256 + r.val, by have := r.isLt; omega⟩)))
          + ∑ r : Fin 128, max (gapAt x0 x1 a p n ⟨384 + r.val, by have := r.isLt; omega⟩) (-(gapAt x0 x1 a p n ⟨384 + r.val, by have := r.isLt; omega⟩)) := by
  unfold out0_2
  rw [View.canon_unit_zero zeros3]
  unfold k0_pay3 k0_pay7 k0_pay1 k0_pay2 k0_pay5 k0_pay6
  refine congrArg₂ (· + ·) (congrArg₂ (· + ·) (congrArg₂ (· + ·) (congrArg (zeroWord + ·) ?_) ?_) ?_) ?_
  · exact abs_run x0 x1 0 rfl a p n
  · exact abs_run x0 x1 1 rfl a p n
  · exact abs_run x0 x1 2 rfl a p n
  · exact abs_run x0 x1 3 rfl a p n

/-- THE SECOND OUTPUT BLOCK at (a, p, n): the same with squared differences. -/
theorem out3_apply (x0 x1 : Vec Ideal S4x3x512x256 .f32) (a : Fin 4) (p : Fin 3) (n : Fin 256) :
    out0_3 x0 x1 (ix3 a p n)
      = (((zeroWord + ∑ r : Fin 128, gapAt x0 x1 a p n ⟨r.val, by have := r.isLt; omega⟩ * gapAt x0 x1 a p n ⟨r.val, by have := r.isLt; omega⟩)
          + ∑ r : Fin 128, gapAt x0 x1 a p n ⟨128 + r.val, by have := r.isLt; omega⟩ * gapAt x0 x1 a p n ⟨128 + r.val, by have := r.isLt; omega⟩)
          + ∑ r : Fin 128, gapAt x0 x1 a p n ⟨256 + r.val, by have := r.isLt; omega⟩ * gapAt x0 x1 a p n ⟨256 + r.val, by have := r.isLt; omega⟩)
          + ∑ r : Fin 128, gapAt x0 x1 a p n ⟨384 + r.val, by have := r.isLt; omega⟩ * gapAt x0 x1 a p n ⟨384 + r.val, by have := r.isLt; omega⟩ := by
  unfold out0_3
  rw [View.canon_unit_zero zeros3]
  unfold k0_pay4 k0_pay8 k0_pay1 k0_pay2 k0_pay5 k0_pay6
  refine congrArg₂ (· + ·) (congrArg₂ (· + ·) (congrArg₂ (· + ·) (congrArg (zeroWord + ·) ?_) ?_) ?_) ?_
  · exact sq_run x0 x1 0 rfl a p n
  · exact sq_run x0 x1 1 rfl a p n
  · exact sq_run x0 x1 2 rfl a p n
  · exact sq_run x0 x1 3 rfl a p n

end Cert.KernelIdeal.Block

end
-- ==== Proof.KernelArrays.lean ====
/-
  From the blocks to the two result arrays of the region, at the ideal instance.

  The grid point (i, j) of the 8 x 4 grid reads block (i, 0, 0, j) of each argument — batches 4 i .. 4 i + 3, lanes
  256 j .. 256 j + 255, every plane and row — and writes back block (i, 0, j) of each result.  So what a point writes
  back is the restriction to its block of ONE function of the whole arguments: at (b, p, n) the sum over the 512 rows
  of |x - y|, respectively of (x - y)^2.  The 32 blocks tile the result arrays, hence each array ends at that function.
-/
import proofs.«146853_j57389353009457_2_alg».proof.Proof.KernelBlock

set_option maxRecDepth 16384

noncomputable section

open scoped BigOperators

namespace Cert.KernelIdeal.Arrays

open Cert.KernelIdeal Cert.KernelIdeal.Gen Cert.KernelIdeal.Whole Cert.KernelIdeal.Block Cert.PairDist
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The first result array as a function of the arguments. -/
def absArr (X Y : S32x3x512x1024.Idx → EReal) : S32x3x1024.Idx → EReal := fun j =>
  absSum X Y ⟨(j 0).val, (j 0).isLt⟩ ⟨(j 1).val, (j 1).isLt⟩ ⟨(j 2).val, (j 2).isLt⟩

/-- The second. -/
def sqArr (X Y : S32x3x512x1024.Idx → EReal) : S32x3x1024.Idx → EReal := fun j =>
  sqSum X Y ⟨(j 0).val, (j 0).isLt⟩ ⟨(j 1).val, (j 1).isLt⟩ ⟨(j 2).val, (j 2).isLt⟩

/-- The four index maps over the grid: the inputs' blocks sit over the outputs' on the batch and lane axes and at
    block 0 on the plane and row axes; the two outputs move together; their block indices stay in range. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = win0_2.index t (2 : Fin 3)
    ∧ win0_1.index t (0 : Fin 4) = win0_2.index t (0 : Fin 3) ∧ win0_1.index t (1 : Fin 4) = 0
    ∧ win0_1.index t (2 : Fin 4) = 0 ∧ win0_1.index t (3 : Fin 4) = win0_2.index t (2 : Fin 3)
    ∧ win0_3.index t (0 : Fin 3) = win0_2.index t (0 : Fin 3) ∧ win0_3.index t (1 : Fin 3) = win0_2.index t (1 : Fin 3)
    ∧ win0_3.index t (2 : Fin 3) = win0_2.index t (2 : Fin 3)
    ∧ win0_2.index t (0 : Fin 3) ≤ 7 ∧ win0_2.index t (1 : Fin 3) = 0 ∧ win0_2.index t (2 : Fin 3) ≤ 3 :=
  (by decide +kernel : ∀ t : Fin grid0.N, _)

/-- Every block of the result arrays is some point's. -/
theorem idx_onto : ∀ (q0 : Fin 8) (q2 : Fin 4), ∃ t : Fin cfg0.N, win0_2.index t = ![q0.val, 0, q2.val] :=
  (by decide +kernel : ∀ (q0 : Fin 8) (q2 : Fin 4), ∃ t : Fin grid0.N, win0_2.index t = ![q0.val, 0, q2.val])

/-- An entry of the first input's block at point t is the first argument's entry at the block's place. -/
theorem in0_apply (c : Dev nD) (t : Fin cfg0.N) (a : Fin 4) (p : Fin 3) (r : Fin 512) (n : Fin 256) (k : S32x3x512x1024.Idx)
    (h0 : (k 0).val = win0_2.index t (0 : Fin 3) * 4 + a.val) (h1 : (k 1).val = p.val) (h2 : (k 2).val = r.val)
    (h3 : (k 3).val = win0_2.index t (2 : Fin 3) * 256 + n.val) :
    (iblk m c 0 t : Vec Ideal S4x3x512x256 .f32) (ix4 a p r n) = (V m c main_arg0 : S32x3x512x1024.Idx → EReal) k := by
  obtain ⟨e0, e1, e2, e3, -⟩ := idx_facts t
  unfold iblk
  rw [View.read_apply]
  show V m c main_arg0 _ = V m c main_arg0 _
  congr 1
  funext e
  apply Fin.ext
  match e with
  | ⟨0, _⟩ => show win0_0.index t (0 : Fin 4) * 4 + 1 * a.val = (k 0).val; rw [e0, h0]; omega
  | ⟨1, _⟩ => show win0_0.index t (1 : Fin 4) * 3 + 1 * p.val = (k 1).val; rw [e1, h1]; omega
  | ⟨2, _⟩ => show win0_0.index t (2 : Fin 4) * 512 + 1 * r.val = (k 2).val; rw [e2, h2]; omega
  | ⟨3, _⟩ => show win0_0.index t (3 : Fin 4) * 256 + 1 * n.val = (k 3).val; rw [e3, h3]; omega

/-- The same for the second input. -/
theorem in1_apply (c : Dev nD) (t : Fin cfg0.N) (a : Fin 4) (p : Fin 3) (r : Fin 512) (n : Fin 256) (k : S32x3x512x1024.Idx)
    (h0 : (k 0).val = win0_2.index t (0 : Fin 3) * 4 + a.val) (h1 : (k 1).val = p.val) (h2 : (k 2).val = r.val)
    (h3 : (k 3).val = win0_2.index t (2 : Fin 3) * 256 + n.val) :
    (iblk m c 1 t : Vec Ideal S4x3x512x256 .f32) (ix4 a p r n) = (V m c main_arg1 : S32x3x512x1024.Idx → EReal) k := by
  obtain ⟨-, -, -, -, e0, e1, e2, e3, -⟩ := idx_facts t
  unfold iblk
  rw [View.read_apply]
  show V m c main_arg1 _ = V m c main_arg1 _
  congr 1
  funext e
  apply Fin.ext
  match e with
  | ⟨0, _⟩ => show win0_1.index t (0 : Fin 4) * 4 + 1 * a.val = (k 0).val; rw [e0, h0]; omega
  | ⟨1, _⟩ => show win0_1.index t (1 : Fin 4) * 3 + 1 * p.val = (k 1).val; rw [e1, h1]; omega
  | ⟨2, _⟩ => show win0_1.index t (2 : Fin 4) * 512 + 1 * r.val = (k 2).val; rw [e2, h2]; omega
  | ⟨3, _⟩ => show win0_1.index t (3 : Fin 4) * 256 + 1 * n.val = (k 3).val; rw [e3, h3]; omega

/-- The difference of the two input blocks at point t is the arguments' difference at the block's place. -/
theorem gapAt_blocks (c : Dev nD) (t : Fin cfg0.N) (a : Fin 4) (p : Fin 3) (n : Fin 256) (r : Fin 512)
    (B : Fin 32) (N : Fin 1024) (hB : B.val = win0_2.index t (0 : Fin 3) * 4 + a.val)
    (hN : N.val = win0_2.index t (2 : Fin 3) * 256 + n.val) :
    gapAt (iblk m c 0 t) (iblk m c 1 t) a p n r = gap (V m c main_arg0) (V m c main_arg1) B p r N := by
  unfold gapAt gap
  rw [in0_apply m c t a p r n (ix4 B p r N) hB rfl rfl hN, in1_apply m c t a p r n (ix4 B p r N) hB rfl rfl hN]

/-- WHAT POINT t WRITES BACK INTO THE FIRST RESULT is block t of `absArr` of the arguments: from zero, the four slabs'
    sums added in turn are the sum over all 512 rows. -/
theorem flushed2_eq (c : Dev nD) (t : Fin cfg0.N) :
    (dats m 0 c).flushed 2 t = ((cfg0.win 2).blk t).view.read (Elt Ideal) (absArr (V m c main_arg0) (V m c main_arg1)) := by
  show (cfg0.win 2).cut (grid0.coords t) ((dats m 0 c).after 2 t) = _
  rw [after0_2]
  refine funext fun (j : S4x3x256.Idx) => ?_
  obtain ⟨a, p, n, rfl⟩ : ∃ (a : Fin 4) (p : Fin 3) (n : Fin 256), j = ix3 a p n := ⟨j 0, j 1, j 2, eq_ix3 j⟩
  obtain ⟨-, -, -, -, -, -, -, -, -, -, -, b0, b1, b2⟩ := idx_facts t
  have ha := a.isLt; have hp := p.isLt; have hn := n.isLt
  refine (out2_apply (iblk m c 0 t) (iblk m c 1 t) a p n).trans ?_
  rw [show zeroWord = 0 from Ideal.ofBits_zero_f32]
  refine (zero_add_runs (fun r => max (gapAt (iblk m c 0 t) (iblk m c 1 t) a p n r) (-(gapAt (iblk m c 0 t) (iblk m c 1 t) a p n r)))).symm.trans ?_
  rw [zero_add]
  show _ = absSum (V m c main_arg0) (V m c main_arg1)
    ⟨win0_2.index t (0 : Fin 3) * 4 + 1 * a.val, by omega⟩ ⟨win0_2.index t (1 : Fin 3) * 3 + 1 * p.val, by omega⟩
    ⟨win0_2.index t (2 : Fin 3) * 256 + 1 * n.val, by omega⟩
  unfold absSum
  refine Finset.sum_congr rfl fun r _ => ?_
  have hP : (⟨win0_2.index t (1 : Fin 3) * 3 + 1 * p.val, by omega⟩ : Fin 3) = p := Fin.ext (by show _ * 3 + 1 * p.val = p.val; omega)
  rw [hP, gapAt_blocks m c t a p n r ⟨win0_2.index t (0 : Fin 3) * 4 + 1 * a.val, by omega⟩ ⟨win0_2.index t (2 : Fin 3) * 256 + 1 * n.val, by omega⟩
    (by show _ * 4 + 1 * a.val = _; omega) (by show _ * 256 + 1 * n.val = _; omega)]

/-- The same for the second result and `sqArr`. -/
theorem flushed3_eq (c : Dev nD) (t : Fin cfg0.N) :
    (dats m 0 c).flushed 3 t = ((cfg0.win 3).blk t).view.read (Elt Ideal) (sqArr (V m c main_arg0) (V m c main_arg1)) := by
  show (cfg0.win 3).cut (grid0.coords t) ((dats m 0 c).after 3 t) = _
  rw [after0_3]
  refine funext fun (j : S4x3x256.Idx) => ?_
  obtain ⟨a, p, n, rfl⟩ : ∃ (a : Fin 4) (p : Fin 3) (n : Fin 256), j = ix3 a p n := ⟨j 0, j 1, j 2, eq_ix3 j⟩
  obtain ⟨-, -, -, -, -, -, -, -, f0, f1, f2, b0, b1, b2⟩ := idx_facts t
  have ha := a.isLt; have hp := p.isLt; have hn := n.isLt
  refine (out3_apply (iblk m c 0 t) (iblk m c 1 t) a p n).trans ?_
  rw [show zeroWord = 0 from Ideal.ofBits_zero_f32]
  refine (zero_add_runs (fun r => gapAt (iblk m c 0 t) (iblk m c 1 t) a p n r * gapAt (iblk m c 0 t) (iblk m c 1 t) a p n r)).symm.trans ?_
  rw [zero_add]
  show _ = sqSum (V m c main_arg0) (V m c main_arg1)
    ⟨win0_3.index t (0 : Fin 3) * 4 + 1 * a.val, by omega⟩ ⟨win0_3.index t (1 : Fin 3) * 3 + 1 * p.val, by omega⟩
    ⟨win0_3.index t (2 : Fin 3) * 256 + 1 * n.val, by omega⟩
  unfold sqSum
  refine Finset.sum_congr rfl fun r _ => ?_
  have hP : (⟨win0_3.index t (1 : Fin 3) * 3 + 1 * p.val, by omega⟩ : Fin 3) = p := Fin.ext (by show _ * 3 + 1 * p.val = p.val; omega)
  rw [hP, gapAt_blocks m c t a p n r ⟨win0_3.index t (0 : Fin 3) * 4 + 1 * a.val, by omega⟩ ⟨win0_3.index t (2 : Fin 3) * 256 + 1 * n.val, by omega⟩
    (by show _ * 4 + 1 * a.val = _; omega) (by show _ * 256 + 1 * n.val = _; omega)]

/-- An index of the first result array lies in point t's block iff each coordinate lies in the block's range. -/
theorem mem_blk2 (t : Fin cfg0.N) (i : S32x3x1024.Idx) :
    i ∈ ((cfg0.win 2).blk t).view.set ↔ ∀ a : Fin 3, win0_2.index t a * S4x3x256.size a ≤ (i a).val ∧ (i a).val < win0_2.index t a * S4x3x256.size a + S4x3x256.size a := by
  show i ∈ ((View.whole main_v0_0).slice (win0_2.rect t)).set ↔ _
  rw [View.set_slice_whole, Rect.mem_set_unit]
  exact Iff.rfl

/-- The same for the second. -/
theorem mem_blk3 (t : Fin cfg0.N) (i : S32x3x1024.Idx) :
    i ∈ ((cfg0.win 3).blk t).view.set ↔ ∀ a : Fin 3, win0_3.index t a * S4x3x256.size a ≤ (i a).val ∧ (i a).val < win0_3.index t a * S4x3x256.size a + S4x3x256.size a := by
  show i ∈ ((View.whole main_v0_1).slice (win0_3.rect t)).set ↔ _
  rw [View.set_slice_whole, Rect.mem_set_unit]
  exact Iff.rfl

/-- The blocks tile the first result array: entry (b, p, n) is in the block of the point with block index (b / 4, 0, n / 256). -/
theorem cover2 (i : S32x3x1024.Idx) : ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 1024 := (i 2).isLt
  obtain ⟨t, ht⟩ := idx_onto ⟨(i 0).val / 4, by omega⟩ ⟨(i 2).val / 256, by omega⟩
  have q0 : win0_2.index t (0 : Fin 3) = (i 0).val / 4 := congrFun ht 0
  have q1 : win0_2.index t (1 : Fin 3) = 0 := congrFun ht 1
  have q2 : win0_2.index t (2 : Fin 3) = (i 2).val / 256 := congrFun ht 2
  refine ⟨t, flush0_2 t, ?_⟩
  rw [mem_blk2]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 3 ≤ (i 1).val ∧ (i 1).val < win0_2.index t (1 : Fin 3) * 3 + 3; omega
  | ⟨2, _⟩ => show win0_2.index t (2 : Fin 3) * 256 ≤ (i 2).val ∧ (i 2).val < win0_2.index t (2 : Fin 3) * 256 + 256; omega

/-- And the second. -/
theorem cover3 (i : S32x3x1024.Idx) : ∃ t : Fin cfg0.N, (cfg0.win 3).flush t = true ∧ i ∈ ((cfg0.win 3).blk t).view.set := by
  have hi0 : (i 0).val < 32 := (i 0).isLt
  have hi1 : (i 1).val < 3 := (i 1).isLt
  have hi2 : (i 2).val < 1024 := (i 2).isLt
  obtain ⟨t, ht⟩ := idx_onto ⟨(i 0).val / 4, by omega⟩ ⟨(i 2).val / 256, by omega⟩
  obtain ⟨-, -, -, -, -, -, -, -, f0, f1, f2, -⟩ := idx_facts t
  have q0 : win0_2.index t (0 : Fin 3) = (i 0).val / 4 := congrFun ht 0
  have q1 : win0_2.index t (1 : Fin 3) = 0 := congrFun ht 1
  have q2 : win0_2.index t (2 : Fin 3) = (i 2).val / 256 := congrFun ht 2
  refine ⟨t, flush0_3 t, ?_⟩
  rw [mem_blk3]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 3 ≤ (i 1).val ∧ (i 1).val < win0_3.index t (1 : Fin 3) * 3 + 3; omega
  | ⟨2, _⟩ => show win0_3.index t (2 : Fin 3) * 256 ≤ (i 2).val ∧ (i 2).val < win0_3.index t (2 : Fin 3) * 256 + 256; omega

/-- THE FIRST RESULT ARRAY after the region: the sums of absolute differences of the arguments as launched. -/
theorem final2 (c : Dev nD) : (dats m 0 c).arrAt 2 cfg0.N
    = absArr (m ((c : Thread nD τ).loc main_arg0)) (m ((c : Thread nD τ).loc main_arg1)) :=
  (dats m 0 c).arrAt_eq_of_cover 2 (absArr (V m c main_arg0) (V m c main_arg1)) (fun t _ => flushed2_eq m c t) cover2

/-- THE SECOND: the sums of squared differences. -/
theorem final3 (c : Dev nD) : (dats m 0 c).arrAt 3 cfg0.N
    = sqArr (m ((c : Thread nD τ).loc main_arg0)) (m ((c : Thread nD τ).loc main_arg1)) :=
  (dats m 0 c).arrAt_eq_of_cover 3 (sqArr (V m c main_arg0) (V m c main_arg1)) (fun t _ => flushed3_eq m c t) cover3

end Cert.KernelIdeal.Arrays

end
-- ==== Proof.LibNary3.lean ====
/-
  A host operation over a LITERAL family of three references (a `stablehlo.concatenate` of three operands, printed
  `nary ![a, b, c] …`), read back with each operand's contents AT ITS OWN REFERENCE, so that a rewriting pass over a
  stretch of host operations goes on into the operands (under the binder of the general `nary` lemma the reference
  `![a, b, c] k` is no literal and no result lemma applies to it). The three-operand counterpart of the library's
  four-operand lemma, with the one-pass tactic over the library's result lemmas and this one, the fold of a stretch
  of host operations over a concatenation of two stretches, and a stretch split at such an operation.
-/
import Idealize.ShloMosaic.Lib.StableHlo.Run

namespace Idealize.ShloMosaic.StableHlo

variable {nD : Nat} {τ : Topo} {sig : RefSig} {Val : EltTy → Type}
variable {x a b y : Ref sig .tc}

/-- The result of a three-operand host operation at its own result buffer: its function of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, restated for `simp` (the result reference un-indexed, as the library's primed lemmas are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A stretch of host operations read back at one reference as ONE `simp` pass: the library's pass with the
    three- and four-operand literal-family lemmas in place of the general `nary` one. -/
macro "host_results_simp" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- A typed reference's two casts, there and back, are the identity (whatever the reference). -/
theorem ofBuf_toBuf {T : BufTy} (x : TRef sig T) (v : T.Contents Val) : x.ofBuf (x.toBuf v) = v := by
  unfold TRef.toBuf TRef.ofBuf; rw [cast_cast]; exact cast_eq _ _

/-- The fold of a stretch of host operations over a concatenation is the fold of the second part over the fold of the
    first. -/
theorem after_append (A B : List (HloOp τ sig Val)) (V : Valuation τ sig Val) : after (A ++ B) V = after B (after A V) := by
  induction A generalizing V with
  | nil => rfl
  | cons op A ih => exact ih (op.result V)

/-- A stretch that ends in a three-operand operation (and operations after it that do not write its result): the
    result is the operation's function of the operands as the stretch BEFORE it leaves them. -/
theorem after_pre_nary3 (pre tail : List (HloOp τ sig Val))
    (f : ((k : Fin 3) → ((![x, a, b] : Fin 3 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b] y f hxs hy :: tail) V (Proc.devRef .tc y)
      = f (Fin.cons (after pre V (Proc.devRef .tc x)) (Fin.cons (after pre V (Proc.devRef .tc a)) (Fin.cons (after pre V (Proc.devRef .tc b)) (fun i => i.elim0)))) := by
  rw [after_append, after_cons, after_of_forall_not_mem tail _ htail]
  exact nary3_result f hxs hy _

/-- The same for a four-operand operation. -/
theorem after_pre_nary4 {e : Ref sig .tc} (pre tail : List (HloOp τ sig Val))
    (f : ((k : Fin 4) → ((![x, a, b, e] : Fin 4 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b, e] y f hxs hy :: tail) V (Proc.devRef .tc y)
      = f (Fin.cons (after pre V (Proc.devRef .tc x)) (Fin.cons (after pre V (Proc.devRef .tc a)) (Fin.cons (after pre V (Proc.devRef .tc b)) (Fin.cons (after pre V (Proc.devRef .tc e)) (fun i => i.elim0))))) := by
  rw [after_append, after_cons, after_of_forall_not_mem tail _ htail]
  exact nary4_result f hxs hy _

/-- A property of every entry of two lists holds of every entry of their concatenation. -/
theorem forall_append {α : Type} {P : α → Prop} {A B : List α} (ha : A.Forall P) (hb : B.Forall P) : (A ++ B).Forall P :=
  List.forall_iff_forall_mem.mpr fun x hx =>
    (List.mem_append.mp hx).elim (List.forall_iff_forall_mem.mp ha x) (List.forall_iff_forall_mem.mp hb x)

end Idealize.ShloMosaic.StableHlo
-- ==== Proof.KernelResult.lean ====
/-
  The idealized kernel's result, entry by entry, and its run read back.

  After the region the host broadcasts each result array [32,3,1024] to a column [32,3,1024,1], joins the three columns
  (absolute, squared, absolute) along the last axis into [32,3,1024,3] and flattens that to [32,9216].  Entry (b, j) of
  the flattened array is entry (b, p, n, k) of the joined one with j = 3 (1024 p + n) + k, that is column k = j % 3 at
  plane p = j / 3072 and lane n = j / 3 % 1024 — the interleaved array of the two sums.
-/
import proofs.«146853_j57389353009457_2_alg».proof.Proof.KernelArrays
import proofs.«146853_j57389353009457_2_alg».proof.Proof.LibNary3

set_option maxRecDepth 16384

noncomputable section

open scoped BigOperators

namespace Cert.KernelIdeal.Result

open Cert.KernelIdeal Cert.KernelIdeal.Gen Cert.KernelIdeal.Whole Cert.KernelIdeal.Arrays Cert.PairDist
open Idealize.ShloMosaic Idealize.ShloMosaic.ValueIdx Idealize.ShloMosaic.TcCoe Idealize.SL.Sem Idealize.ShloMosaic.StableHlo
open Idealize.ShloMosaic.Pipeline (Dat)

section AnyInstance
variable {F : FTy → Type} [FloatOps F]

/-- The five host operations after the region as one function of the region's two result arrays. -/
def tail (u v : (⟨S32x3x1024, .f32⟩ : BufTy).Contents (Elt F)) : (⟨S32x9216, .f32⟩ : BufTy).Contents (Elt F) :=
  shapeCast _ (concatenate S32x3x1024x3 3
    [⟨S32x3x1024x1, broadcastInDim S32x3x1024x1 ![0, 1, 2] bcast_S32x3x1024_S32x3x1024x1_0_1_2 u⟩,
     ⟨S32x3x1024x1, broadcastInDim S32x3x1024x1 ![0, 1, 2] bcast_S32x3x1024_S32x3x1024x1_0_1_2 v⟩,
     ⟨S32x3x1024x1, broadcastInDim S32x3x1024x1 ![0, 1, 2] bcast_S32x3x1024_S32x3x1024x1_0_1_2 u⟩]
    concatenates_S32x3x1024x1_S32x3x1024x1_S32x3x1024x1_S32x3x1024x3_d3) shapeCasts_S32x3x1024x3_S32x9216

/-- Run from any buffer contents, they leave that function of the two arrays in the result buffer. -/
theorem tail_of (W : Valuation τ sig (Elt F)) :
    StableHlo.after hostOps1 W (Proc.devRef .tc main_v5)
      = tail (F := F) (W (Proc.devRef .tc main_v0_0)) (W (Proc.devRef .tc main_v0_1)) := by
  host_results_simp
  rfl

end AnyInstance

variable (m : (ℓ : Loc nD τ sig) → Buf (Elt Ideal) ℓ) (ρ : Dev nD → PrngReg)

/-- What the frame run leaves in the result buffer: the host operations' function of the two arrays the points
    wrote back. -/
theorem tail_result (c : Dev nD) :
    Pipeline.afterTail₀ cfgs (dats m) 0 (V0 m) [hostOps1] c main_v5
      = tail (F := Ideal) ((dats m 0 c).arrAt 2 cfg0.N) ((dats m 0 c).arrAt 3 cfg0.N) := by
  unfold Pipeline.afterTail₀
  show StableHlo.after hostOps1 _ (Proc.devRef .tc main_v5) = _
  rw [tail_of]
  congr 1
  · exact Pipeline.withArrays_arr spec0 launch0.win.arr_inj c _ _ 2
  · exact Pipeline.withArrays_arr spec0 launch0.win.arr_inj c _ _ 3

/-- THE KERNEL'S RESULT is the interleaved array of the two sums. -/
theorem result_eq (X Y : S32x3x512x1024.Idx → EReal) : tail (F := Ideal) (absArr X Y) (sqArr X Y) = out X Y := by
  funext i
  have h0 : (i 0).val < 32 := idx2_lt0 i
  have h1 : (i 1).val < 9216 := idx2_lt1 i
  unfold tail
  refine (shapeCast_apply _ shapeCasts_S32x3x1024x3_S32x9216 i
    (ix4 (⟨(i 0).val, h0⟩ : Fin 32) (⟨(i 1).val / 3072, by omega⟩ : Fin 3) (⟨(i 1).val / 3 % 1024, by omega⟩ : Fin 1024)
      (⟨(i 1).val % 3, by omega⟩ : Fin 3)) ?_).trans ?_
  · rewrite [Shape.rowMajor_val_four, Shape.rowMajor_val_two]
    show (((i 0).val * 3 + (i 1).val / 3072) * 1024 + (i 1).val / 3 % 1024) * 3 + (i 1).val % 3 = (i 0).val * 9216 + (i 1).val
    omega
  have hi : ∀ b' : Fin S32x3x1024x1.rank, b'.cast (rfl : S32x3x1024x1.rank = S32x3x1024x3.rank) ≠ (3 : Fin 4) →
      ((ix4 (⟨(i 0).val, h0⟩ : Fin 32) (⟨(i 1).val / 3072, by omega⟩ : Fin 3) (⟨(i 1).val / 3 % 1024, by omega⟩ : Fin 1024) (0 : Fin 1) : S32x3x1024x1.Idx) b').val
        = ((ix4 (⟨(i 0).val, h0⟩ : Fin 32) (⟨(i 1).val / 3072, by omega⟩ : Fin 3) (⟨(i 1).val / 3 % 1024, by omega⟩ : Fin 1024)
            (⟨(i 1).val % 3, by omega⟩ : Fin 3) : S32x3x1024x3.Idx) (b'.cast rfl)).val := by
    intro b' hb
    match b' with
    | ⟨0, _⟩ => rfl
    | ⟨1, _⟩ => rfl
    | ⟨2, _⟩ => rfl
    | ⟨3, _⟩ => exact absurd rfl hb
  have hcol : ∀ w : (⟨S32x3x1024, .f32⟩ : BufTy).Contents (Elt Ideal),
      broadcastInDim S32x3x1024x1 ![0, 1, 2] bcast_S32x3x1024_S32x3x1024x1_0_1_2 w
          (ix4 (⟨(i 0).val, h0⟩ : Fin 32) (⟨(i 1).val / 3072, by omega⟩ : Fin 3) (⟨(i 1).val / 3 % 1024, by omega⟩ : Fin 1024) (0 : Fin 1))
        = w (ix3 (⟨(i 0).val, h0⟩ : Fin 32) (⟨(i 1).val / 3072, by omega⟩ : Fin 3) (⟨(i 1).val / 3 % 1024, by omega⟩ : Fin 1024)) := fun w =>
    broadcastInDim_apply _ bcast_S32x3x1024_S32x3x1024x1_0_1_2 w _ _ (fun a => match a with
      | ⟨0, _⟩ => by show (i 0).val = if (32 : Nat) = 1 then 0 else (i 0).val; rw [if_neg (by decide)]
      | ⟨1, _⟩ => by show (i 1).val / 3072 = if (3 : Nat) = 1 then 0 else (i 1).val / 3072; rw [if_neg (by decide)]
      | ⟨2, _⟩ => by show (i 1).val / 3 % 1024 = if (1024 : Nat) = 1 then 0 else (i 1).val / 3 % 1024; rw [if_neg (by decide)])
  rcases (by omega : (i 1).val % 3 = 0 ∨ (i 1).val % 3 = 1 ∨ (i 1).val % 3 = 2) with hk | hk | hk
  · refine (concatenate_apply_piece (t := S32x3x1024x3) 3 _ _ _ 0 (by simp) S32x3x1024x1 _ rfl rfl 0 rfl _ hi
      (by show 0 + 0 = (i 1).val % 3; omega)).trans ?_
    rw [hcol]
    unfold out col
    rw [if_neg (by omega)]
    rfl
  · refine (concatenate_apply_piece (t := S32x3x1024x3) 3 _ _ _ 1 (by simp) S32x3x1024x1 _ rfl rfl 1 rfl _ hi
      (by show 1 + 0 = (i 1).val % 3; omega)).trans ?_
    rw [hcol]
    unfold out col
    rw [if_pos hk]
    rfl
  · refine (concatenate_apply_piece (t := S32x3x1024x3) 3 _ _ _ 2 (by simp) S32x3x1024x1 _ rfl rfl 2 rfl _ hi
      (by show 2 + 0 = (i 1).val % 3; omega)).trans ?_
    rw [hcol]
    unfold out col
    rw [if_neg (by omega)]
    rfl

/-- THE RUN, READ: every weakly fair execution of the idealized kernel's entry point terminates without a fault with
    the result buffer at the interleaved array of the two sums of the arguments as launched, the arguments unchanged. -/
theorem run : θ_run defs (onTc (τ := τ) (main (F := Ideal))) ⟨m, fun _ => 0, ρ⟩ fun r => ∀ c : Dev nD,
      r.2.mem ((c.tc : Thread nD τ).loc main_v5) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans
        ((tail_result m c).trans (by rw [final2, final3, result_eq])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.Reference.lean ====
/-
  The reference program's result, entry by entry, on the extended reals.

  The reference transposes the last two axes of each argument, merges the plane and lane axes into one axis of
  3072 = 3 * 1024 pairs, takes the difference, and sums |d| and d * d over the 512 rows from zero.  Pair q is plane
  q / 1024 and lane q % 1024, so row c of pair q of batch b reads the arguments at (b, q / 1024, c, q % 1024).  The
  three columns [32, 3072, 1] are then joined along the last axis and the result flattened to [32, 9216]: entry (b, j)
  is column j % 3 of pair j / 3.
-/
import proofs.«146853_j57389353009457_2_alg».proof.Proof.Gen.ReferenceIdeal.Read
import proofs.«146853_j57389353009457_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Entry

open Cert.ReferenceIdeal Cert.ReferenceIdeal.Gen Cert.ReferenceIdeal.Read Cert.PairDist
open Idealize.ShloMosaic Idealize.ShloMosaic.ValueIdx

/-- The plane of a pair. -/
abbrev planeOf (q : Fin 3072) : Fin 3 := ⟨q.val / 1024, by have := q.isLt; omega⟩
/-- The lane of a pair. -/
abbrev laneOf (q : Fin 3072) : Fin 1024 := ⟨q.val % 1024, by omega⟩

/-- Row c of pair q of batch b, followed back through the merge of the two axes and the transposition, is the
    argument's entry (b, q / 1024, c, q % 1024) — for the first argument's chain -/
theorem back0 (b : Fin 32) (q : Fin 3072) (c : Fin 512) :
    idx_main_v0 (idx_main_v1 (ix3 b q c)) = ix4 b (planeOf q) c (laneOf q) := by
  have hb := b.isLt; have hq := q.isLt; have hc := c.isLt
  funext e; apply Fin.ext
  match e with
  | ⟨0, _⟩ => show ((b.val * 3072 + q.val) * 512 + c.val) / 1572864 = b.val; omega
  | ⟨1, _⟩ => show ((b.val * 3072 + q.val) * 512 + c.val) / 524288 % 3 = q.val / 1024; omega
  | ⟨2, _⟩ => show ((b.val * 3072 + q.val) * 512 + c.val) % 512 = c.val; omega
  | ⟨3, _⟩ => show ((b.val * 3072 + q.val) * 512 + c.val) / 512 % 1024 = q.val % 1024; omega

/-- — and for the second's. -/
theorem back1 (b : Fin 32) (q : Fin 3072) (c : Fin 512) :
    idx_main_v2 (idx_main_v3 (ix3 b q c)) = ix4 b (planeOf q) c (laneOf q) := back0 b q c

/-- The difference at row c of pair q. -/
theorem diff_apply (x0 x1 : (⟨S32x3x512x1024, .f32⟩ : BufTy).Contents (Elt Ideal)) (b : Fin 32) (q : Fin 3072) (c : Fin 512) :
    val_main_v4 (F := Ideal) x0 x1 (ix3 b q c) = gap x0 x1 b (planeOf q) c (laneOf q) := by
  rw [val_main_v4_apply, val_main_v1_apply, val_main_v0_apply, val_main_v3_apply, val_main_v2_apply, back0, back1]
  rfl

/-- The first reduction at pair q: the sum over the rows of the absolute difference. -/
theorem abs_apply (x0 x1 : (⟨S32x3x512x1024, .f32⟩ : BufTy).Contents (Elt Ideal)) (b : Fin 32) (q : Fin 3072) :
    val_main_v6 (F := Ideal) x0 x1 (ix2 b q) = absSum x0 x1 b (planeOf q) (laneOf q) := by
  rw [val_main_v6_apply, val_main_cst_apply]
  show Ideal.ofBits .f32 0x00000000#32 + _ = _
  rw [Ideal.ofBits_zero_f32, zero_add]
  refine Finset.sum_congr rfl fun c _ => ?_
  rw [val_main_v5_apply]
  show max (val_main_v4 (F := Ideal) x0 x1 (ix3 b q c)) (-(val_main_v4 (F := Ideal) x0 x1 (ix3 b q c))) = _
  rw [diff_apply]

/-- The second reduction at pair q: the sum over the rows of the squared difference. -/
theorem sq_apply (x0 x1 : (⟨S32x3x512x1024, .f32⟩ : BufTy).Contents (Elt Ideal)) (b : Fin 32) (q : Fin 3072) :
    val_main_v8 (F := Ideal) x0 x1 (ix2 b q) = sqSum x0 x1 b (planeOf q) (laneOf q) := by
  rw [val_main_v8_apply, val_main_cst_0_apply]
  show Ideal.ofBits .f32 0x00000000#32 + _ = _
  rw [Ideal.ofBits_zero_f32, zero_add]
  refine Finset.sum_congr rfl fun c _ => ?_
  rw [val_main_v7_apply]
  show val_main_v4 (F := Ideal) x0 x1 (ix3 b q c) * val_main_v4 (F := Ideal) x0 x1 (ix3 b q c) = _
  rw [diff_apply]

/-- The three keepdims columns at pair q. -/
theorem column0_apply (x0 x1 : (⟨S32x3x512x1024, .f32⟩ : BufTy).Contents (Elt Ideal)) (b : Fin 32) (q : Fin 3072) (z : Fin 1) :
    val_main_v9 (F := Ideal) x0 x1 (ix3 b q z) = absSum x0 x1 b (planeOf q) (laneOf q) := by
  rw [val_main_v9_apply]
  have e : idx_main_v9 (ix3 b q z) = ix2 b q := funext fun e => Fin.ext (by match e with | ⟨0, _⟩ => rfl | ⟨1, _⟩ => rfl)
  rw [e, abs_apply]
theorem column1_apply (x0 x1 : (⟨S32x3x512x1024, .f32⟩ : BufTy).Contents (Elt Ideal)) (b : Fin 32) (q : Fin 3072) (z : Fin 1) :
    val_main_v10 (F := Ideal) x0 x1 (ix3 b q z) = sqSum x0 x1 b (planeOf q) (laneOf q) := by
  rw [val_main_v10_apply]
  have e : idx_main_v10 (ix3 b q z) = ix2 b q := funext fun e => Fin.ext (by match e with | ⟨0, _⟩ => rfl | ⟨1, _⟩ => rfl)
  rw [e, sq_apply]
theorem column2_apply (x0 x1 : (⟨S32x3x512x1024, .f32⟩ : BufTy).Contents (Elt Ideal)) (b : Fin 32) (q : Fin 3072) (z : Fin 1) :
    val_main_v11 (F := Ideal) x0 x1 (ix3 b q z) = absSum x0 x1 b (planeOf q) (laneOf q) := by
  rw [val_main_v11_apply]
  have e : idx_main_v11 (ix3 b q z) = ix2 b q := funext fun e => Fin.ext (by match e with | ⟨0, _⟩ => rfl | ⟨1, _⟩ => rfl)
  rw [e, abs_apply]

/-- THE REFERENCE'S RESULT is the interleaved array of the two sums: entry (b, j) is column j % 3 of pair j / 3. -/
theorem result_eq (x0 x1 : (⟨S32x3x512x1024, .f32⟩ : BufTy).Contents (Elt Ideal)) :
    val_main_v13 (F := Ideal) x0 x1 = out x0 x1 := by
  funext i
  have h0 : (i 0).val < 32 := idx2_lt0 i
  have h1 : (i 1).val < 9216 := idx2_lt1 i
  rw [val_main_v13_apply]
  unfold val_main_v12
  have hP : planeOf ⟨(i 1).val / 3, by omega⟩ = ⟨(i 1).val / 3072, by omega⟩ :=
    Fin.ext (by show (i 1).val / 3 / 1024 = (i 1).val / 3072; omega)
  have hi : ∀ b' : Fin S32x3072x1.rank, b'.cast (rfl : S32x3072x1.rank = S32x3072x3.rank) ≠ (2 : Fin 3) →
      ((ix3 (⟨(i 0).val, h0⟩ : Fin 32) (⟨(i 1).val / 3, by omega⟩ : Fin 3072) (0 : Fin 1) : S32x3072x1.Idx) b').val
        = (idx_main_v13 i (b'.cast rfl)).val := by
    intro b' hb
    match b' with
    | ⟨0, _⟩ => show (i 0).val = ((i 0).val * 9216 + (i 1).val) / 9216; omega
    | ⟨1, _⟩ => show (i 1).val / 3 = ((i 0).val * 9216 + (i 1).val) / 3 % 3072; omega
    | ⟨2, _⟩ => exact absurd rfl hb
  rcases (by omega : (i 1).val % 3 = 0 ∨ (i 1).val % 3 = 1 ∨ (i 1).val % 3 = 2) with hk | hk | hk
  · refine (concatenate_apply_piece (t := S32x3072x3) 2 _ _ (idx_main_v13 i) 0 (by simp) S32x3072x1
      (val_main_v9 (F := Ideal) x0 x1) rfl rfl 0 rfl (ix3 ⟨(i 0).val, h0⟩ ⟨(i 1).val / 3, by omega⟩ 0) hi
      (by show 0 + 0 = ((i 0).val * 9216 + (i 1).val) % 3; omega)).trans ?_
    rw [column0_apply, hP]
    unfold out col
    rw [if_neg (by omega)]
  · refine (concatenate_apply_piece (t := S32x3072x3) 2 _ _ (idx_main_v13 i) 1 (by simp) S32x3072x1
      (val_main_v10 (F := Ideal) x0 x1) rfl rfl 1 rfl (ix3 ⟨(i 0).val, h0⟩ ⟨(i 1).val / 3, by omega⟩ 0) hi
      (by show 1 + 0 = ((i 0).val * 9216 + (i 1).val) % 3; omega)).trans ?_
    rw [column1_apply, hP]
    unfold out col
    rw [if_pos hk]
  · refine (concatenate_apply_piece (t := S32x3072x3) 2 _ _ (idx_main_v13 i) 2 (by simp) S32x3072x1
      (val_main_v11 (F := Ideal) x0 x1) rfl rfl 2 rfl (ix3 ⟨(i 0).val, h0⟩ ⟨(i 1).val / 3, by omega⟩ 0) hi
      (by show 2 + 0 = ((i 0).val * 9216 + (i 1).val) % 3; omega)).trans ?_
    rw [column2_apply, hP]
    unfold out col
    rw [if_neg (by omega)]

end Cert.ReferenceIdeal.Entry

end
-- ==== Proof.lean ====
/-
  The certificate: a kernel that, for two arrays x, y of shape [32, 3, 512, 1024], returns for every batch b, plane p
  and lane n the sum over the 512 rows c of |x - y| and of (x - y)^2 at (b, p, c, n), interleaved as
  (absolute, squared, absolute) into [32, 9216], against the reference that computes the same two sums after
  transposing the row and lane axes and merging the plane and lane axes.

  The kernel tiles batches by 4 and lanes by 256 and, inside a tile, adds the rows up in four runs of 128 from zero;
  the reference adds all 512 rows from zero.  On the extended reals the two sums are equal by associativity of
  addition alone (no finiteness of the inputs is needed), and every entry of the result reads the same argument
  entries on both sides: plane j / 3072, lane j / 3 % 1024, column j % 3 for entry (b, j).

  The three frames: each kernel program's run is the pipeline's frame run around its one region, continued by five host
  operations; the reference's is its run of sixteen host operations.  The idealization rewrote nothing, so
  `preserves` holds trivially.
-/
import proofs.«146853_j57389353009457_2_alg».proof.Defs
import proofs.«146853_j57389353009457_2_alg».proof.Proof.Gen.Kernel
import proofs.«146853_j57389353009457_2_alg».proof.Proof.Gen.KernelIdeal
import proofs.«146853_j57389353009457_2_alg».proof.Proof.Gen.ReferenceIdeal
import proofs.«146853_j57389353009457_2_alg».proof.Proof.Gen.Pre_finite_inputs
import proofs.«146853_j57389353009457_2_alg».proof.Proof.RunBits
import proofs.«146853_j57389353009457_2_alg».proof.Proof.KernelResult
import proofs.«146853_j57389353009457_2_alg».proof.Proof.Reference

noncomputable section

namespace Cert.Proof

open Idealize.ShloMosaic Idealize.ShloMosaic.TcCoe Idealize.SL.Sem

/-- The kernel as printed runs to the end, faults nowhere and leaves its two arguments as launched. -/
theorem frame_kernel : Cert.frame_Kernel := fun m ρ _ => Cert.Kernel.Whole.frame (F := Bits) m ρ

/-- So does its idealization. -/
theorem frame_kernel_ideal : Cert.frame_KernelIdeal := fun m ρ _ => Cert.KernelIdeal.Whole.frame (F := Ideal) m ρ

/-- And the reference: its run of host operations, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the interleaved array of the two sums of the (agreeing) arguments. -/
theorem algebraic : Cert.algebraic_KernelIdeal_ReferenceIdeal := by
  intro m ρ m' ρ' _ hagree
  refine ⟨fun c => Cert.PairDist.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Entry.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
